-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x64x9x4096 : Shape := ⟨4, ![16, 64, 9, 4096]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S16x64x9x4096 : S_.BroadcastsInDim S16x64x9x4096 (![] : Fin 0 → Fin S16x64x9x4096.rank)
  reducesTo_S16x64x9x4096_S_d0_1_2_3 : S16x64x9x4096.ReducesTo [0, 1, 2, 3] S_

variable [Facts]

def fn {F : FTy → Type} [FloatOps F] (main_arg0 : FVec F S16x512x64x64 .f32) (main_arg1 : FVec F S16x64x9x4096 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x64x9x4096 .f32 := Host.absf main_arg1
  let main_cst_0 : FVec F S_ .f32 := constant S_ .f32 0x7F800000#32
  let main_v5 : FVec F S16x64x9x4096 .f32 := broadcastInDim S16x64x9x4096 ![] bcast_S_S16x64x9x4096 main_cst_0
  let main_v6 : IVec S16x64x9x4096 1 := cmpf .olt main_v4 main_v5
  let main_c_1 : IVec S_ 1 := constantI S_ 1 1#1
  let main_v7 : IVec S_ 1 := (fun x v => Host.reduce IntOp.andi x v reducesTo_S16x64x9x4096_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x64x9x4096 : Shape := ⟨4, ![16, 64, 9, 4096]⟩
abbrev S_ : Shape := ⟨0, ![]⟩
abbrev S16x512x66x66 : Shape := ⟨4, ![16, 512, 66, 66]⟩
abbrev S16x64x9x64x64 : Shape := ⟨5, ![16, 64, 9, 64, 64]⟩
abbrev S1x64x66x66 : Shape := ⟨4, ![1, 64, 66, 66]⟩
abbrev S1x64x9x64x64 : Shape := ⟨5, ![1, 64, 9, 64, 64]⟩
abbrev S1x64x64x64 : Shape := ⟨4, ![1, 64, 64, 64]⟩
abbrev S64x64x64 : Shape := ⟨3, ![64, 64, 64]⟩
abbrev S1x64x1x64x64 : Shape := ⟨5, ![1, 64, 1, 64, 64]⟩

abbrev nBuf : Space → Nat
  | .hbm => 7
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S16x64x9x4096, .f32⟩
  | .hbm, ⟨2, _⟩ => ⟨S_, .i32⟩
  | .hbm, ⟨3, _⟩ => ⟨S_, .f32⟩
  | .hbm, ⟨4, _⟩ => ⟨S16x512x66x66, .f32⟩
  | .hbm, ⟨5, _⟩ => ⟨S16x64x9x64x64, .f32⟩
  | .hbm, ⟨6, _⟩ => ⟨S16x512x64x64, .f32⟩
  | .local _ .vmem, ⟨0, _⟩ => ⟨S1x64x66x66, .f32⟩
  | .local _ .vmem, ⟨1, _⟩ => ⟨S1x64x66x66, .f32⟩
  | .local _ .vmem, ⟨2, _⟩ => ⟨S1x64x9x64x64, .f32⟩
  | .local _ .vmem, ⟨3, _⟩ => ⟨S1x64x9x64x64, .f32⟩
  | .local _ .vmem, ⟨4, _⟩ => ⟨S1x64x64x64, .f32⟩
  | .local _ .vmem, ⟨5, _⟩ => ⟨S1x64x64x64, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x512x64x64_S16x512x66x66_000_000_110_110 : S16x512x64x64.Pads (![0, 0, 1, 1] : Fin 4 → Nat) ![0, 0, 1, 1] ![0, 0, 0, 0] S16x512x66x66
  h_S_ : 0 < S_.numel
  shapeCasts_S16x64x9x4096_S16x64x9x64x64 : S16x64x9x4096.ShapeCasts S16x64x9x64x64
  inb_S1x64x66x66_S1x64x64x64_0_0_0_0 : ∀ a, (![0, 0, 0, 0] : Fin 4 → Nat) a + S1x64x64x64.size a ≤ S1x64x66x66.size a
  h_S1x64x64x64 : 0 < S1x64x64x64.numel
  shapeCasts_S1x64x64x64_S64x64x64 : S1x64x64x64.ShapeCasts S64x64x64
  inb_S1x64x9x64x64_S1x64x1x64x64_0_0_0_0_0 : ∀ a, (![0, 0, 0, 0, 0] : Fin 5 → Nat) a + S1x64x1x64x64.size a ≤ S1x64x9x64x64.size a
  h_S1x64x1x64x64 : 0 < S1x64x1x64x64.numel
  shapeCasts_S1x64x1x64x64_S64x64x64 : S1x64x1x64x64.ShapeCasts S64x64x64
  inb_S1x64x66x66_S1x64x64x64_0_0_0_1 : ∀ a, (![0, 0, 0, 1] : Fin 4 → Nat) a + S1x64x64x64.size a ≤ S1x64x66x66.size a
  inb_S1x64x9x64x64_S1x64x1x64x64_0_0_1_0_0 : ∀ a, (![0, 0, 1, 0, 0] : Fin 5 → Nat) a + S1x64x1x64x64.size a ≤ S1x64x9x64x64.size a
  inb_S1x64x66x66_S1x64x64x64_0_0_0_2 : ∀ a, (![0, 0, 0, 2] : Fin 4 → Nat) a + S1x64x64x64.size a ≤ S1x64x66x66.size a
  inb_S1x64x9x64x64_S1x64x1x64x64_0_0_2_0_0 : ∀ a, (![0, 0, 2, 0, 0] : Fin 5 → Nat) a + S1x64x1x64x64.size a ≤ S1x64x9x64x64.size a
  inb_S1x64x66x66_S1x64x64x64_0_0_1_0 : ∀ a, (![0, 0, 1, 0] : Fin 4 → Nat) a + S1x64x64x64.size a ≤ S1x64x66x66.size a
  inb_S1x64x9x64x64_S1x64x1x64x64_0_0_3_0_0 : ∀ a, (![0, 0, 3, 0, 0] : Fin 5 → Nat) a + S1x64x1x64x64.size a ≤ S1x64x9x64x64.size a
  inb_S1x64x66x66_S1x64x64x64_0_0_1_1 : ∀ a, (![0, 0, 1, 1] : Fin 4 → Nat) a + S1x64x64x64.size a ≤ S1x64x66x66.size a
  inb_S1x64x9x64x64_S1x64x1x64x64_0_0_4_0_0 : ∀ a, (![0, 0, 4, 0, 0] : Fin 5 → Nat) a + S1x64x1x64x64.size a ≤ S1x64x9x64x64.size a
  inb_S1x64x66x66_S1x64x64x64_0_0_1_2 : ∀ a, (![0, 0, 1, 2] : Fin 4 → Nat) a + S1x64x64x64.size a ≤ S1x64x66x66.size a
  inb_S1x64x9x64x64_S1x64x1x64x64_0_0_5_0_0 : ∀ a, (![0, 0, 5, 0, 0] : Fin 5 → Nat) a + S1x64x1x64x64.size a ≤ S1x64x9x64x64.size a
  inb_S1x64x66x66_S1x64x64x64_0_0_2_0 : ∀ a, (![0, 0, 2, 0] : Fin 4 → Nat) a + S1x64x64x64.size a ≤ S1x64x66x66.size a
  inb_S1x64x9x64x64_S1x64x1x64x64_0_0_6_0_0 : ∀ a, (![0, 0, 6, 0, 0] : Fin 5 → Nat) a + S1x64x1x64x64.size a ≤ S1x64x9x64x64.size a
  inb_S1x64x66x66_S1x64x64x64_0_0_2_1 : ∀ a, (![0, 0, 2, 1] : Fin 4 → Nat) a + S1x64x64x64.size a ≤ S1x64x66x66.size a
  inb_S1x64x9x64x64_S1x64x1x64x64_0_0_7_0_0 : ∀ a, (![0, 0, 7, 0, 0] : Fin 5 → Nat) a + S1x64x1x64x64.size a ≤ S1x64x9x64x64.size a
  inb_S1x64x66x66_S1x64x64x64_0_0_2_2 : ∀ a, (![0, 0, 2, 2] : Fin 4 → Nat) a + S1x64x64x64.size a ≤ S1x64x66x66.size a
  inb_S1x64x9x64x64_S1x64x1x64x64_0_0_8_0_0 : ∀ a, (![0, 0, 8, 0, 0] : Fin 5 → Nat) a + S1x64x1x64x64.size a ≤ S1x64x9x64x64.size a
  inb_S1x64x64x64_S1x64x64x64_0_0_0_0 : ∀ a, (![0, 0, 0, 0] : Fin 4 → Nat) a + S1x64x64x64.size a ≤ S1x64x64x64.size a
  shapeCasts_S64x64x64_S1x64x64x64 : S64x64x64.ShapeCasts S1x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x66x66.size a ≤ S16x512x66x66.size a
  hwx0_0 : ∀ i : grid0.Coords, EltTy.bits .f32 = 32 ∨ (Rect.block (s := S16x512x66x66) S1x64x66x66.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x9x64x64.size a ≤ S16x64x9x64x64.size a
  hwx0_1 : ∀ i : grid0.Coords, EltTy.bits .f32 = 32 ∨ (Rect.block (s := S16x64x9x64x64) S1x64x9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S16x512x64x64.size a
  hwx0_2 : ∀ i : grid0.Coords, EltTy.bits .f32 = 32 ∨ (Rect.block (s := S16x512x64x64) S1x64x64x64.size (cc0_transform_2 i) (hinb0_2 i)).WholeWords (EltTy.packing .f32)

variable [Facts₀]

abbrev win0_0 : Pipeline.Window sig grid0 :=
  Pipeline.Window.ofSpec (Memref.whole main_v0) S1x64x66x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x64x9x4096 : Shape := ⟨4, ![16, 64, 9, 4096]⟩
abbrev S_ : Shape := ⟨0, ![]⟩
abbrev S16x512x66x66 : Shape := ⟨4, ![16, 512, 66, 66]⟩
abbrev S16x1x64x9x64x64 : Shape := ⟨6, ![16, 1, 64, 9, 64, 64]⟩
abbrev S16x8x64x64x64 : Shape := ⟨5, ![16, 8, 64, 64, 64]⟩
abbrev S16x1x64x1x64x64 : Shape := ⟨6, ![16, 1, 64, 1, 64, 64]⟩
abbrev S16x1x64x64x64 : Shape := ⟨5, ![16, 1, 64, 64, 64]⟩

abbrev nBuf : Space → Nat
  | .hbm => 72
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x64x9x4096, .f32⟩
  | .hbm, ⟨2, _⟩ => ⟨S_, .i32⟩
  | .hbm, ⟨3, _⟩ => ⟨S_, .f32⟩
  | .hbm, ⟨4, _⟩ => ⟨S16x512x66x66, .f32⟩
  | .hbm, ⟨5, _⟩ => ⟨S16x1x64x9x64x64, .f32⟩
  | .hbm, ⟨6, _⟩ => ⟨S_, .f32⟩
  | .hbm, ⟨7, _⟩ => ⟨S16x8x64x64x64, .f32⟩
  | .hbm, ⟨8, _⟩ => ⟨S16x512x64x64, .f32⟩
  | .hbm, ⟨9, _⟩ => ⟨S16x8x64x64x64, .f32⟩
  | .hbm, ⟨10, _⟩ => ⟨S16x1x64x1x64x64, .f32⟩
  | .hbm, ⟨11, _⟩ => ⟨S16x1x64x64x64, .f32⟩
  | .hbm, ⟨12, _⟩ => ⟨S16x8x64x64x64, .f32⟩
  | .hbm, ⟨13, _⟩ => ⟨S16x8x64x64x64, .f32⟩
  | .hbm, ⟨14, _⟩ => ⟨S16x8x64x64x64, .f32⟩
  | .hbm, ⟨15, _⟩ => ⟨S16x512x64x64, .f32⟩
  | .hbm, ⟨16, _⟩ => ⟨S16x8x64x64x64, .f32⟩
  | .hbm, ⟨17, _⟩ => ⟨S16x1x64x1x64x64, .f32⟩
  | .hbm, ⟨18, _⟩ => ⟨S16x1x64x64x64, .f32⟩
  | .hbm, ⟨19, _⟩ => ⟨S16x8x64x64x64, .f32⟩
  | .hbm, ⟨20, _⟩ => ⟨S16x8x64x64x64, .f32⟩
  | .hbm, ⟨21, _⟩ => ⟨S16x8x64x64x64, .f32⟩
  | .hbm, ⟨22, _⟩ => ⟨S16x512x64x64, .f32⟩
  | .hbm, ⟨23, _⟩ => ⟨S16x8x64x64x64, .f32⟩
  | .hbm, ⟨24, _⟩ => ⟨S16x1x64x1x64x64, .f32⟩
  | .hbm, ⟨25, _⟩ => ⟨S16x1x64x64x64, .f32⟩
  | .hbm, ⟨26, _⟩ => ⟨S16x8x64x64x64, .f32⟩
  | .hbm, ⟨27, _⟩ => ⟨S16x8x64x64x64, .f32⟩
  | .hbm, ⟨28, _⟩ => ⟨S16x8x64x64x64, .f32⟩
  | .hbm, ⟨29, _⟩ => ⟨S16x512x64x64, .f32⟩
  | .hbm, ⟨30, _⟩ => ⟨S16x8x64x64x64, .f32⟩
  | .hbm, ⟨31, _⟩ => ⟨S16x1x64x1x64x64, .f32⟩
  | .hbm, ⟨32, _⟩ => ⟨S16x1x64x64x64, .f32⟩
  | .hbm, ⟨33, _⟩ => ⟨S16x8x64x64x64, .f32⟩
  | .hbm, ⟨34, _⟩ => ⟨S16x8x64x64x64, .f32⟩
  | .hbm, ⟨35, _⟩ => ⟨S16x8x64x64x64, .f32⟩
  | .hbm, ⟨36, _⟩ => ⟨S16x512x64x64, .f32⟩
  | .hbm, ⟨37, _⟩ => ⟨S16x8x64x64x64, .f32⟩
  | .hbm, ⟨38, _⟩ => ⟨S16x1x64x1x64x64, .f32⟩
  | .hbm, ⟨39, _⟩ => ⟨S16x1x64x64x64, .f32⟩
  | .hbm, ⟨40, _⟩ => ⟨S16x8x64x64x64, .f32⟩
  | .hbm, ⟨41, _⟩ => ⟨S16x8x64x64x64, .f32⟩
  | .hbm, ⟨42, _⟩ => ⟨S16x8x64x64x64, .f32⟩
  | .hbm, ⟨43, _⟩ => ⟨S16x512x64x64, .f32⟩
  | .hbm, ⟨44, _⟩ => ⟨S16x8x64x64x64, .f32⟩
  | .hbm, ⟨45, _⟩ => ⟨S16x1x64x1x64x64, .f32⟩
  | .hbm, ⟨46, _⟩ => ⟨S16x1x64x64x64, .f32⟩
  | .hbm, ⟨47, _⟩ => ⟨S16x8x64x64x64, .f32⟩
  | .hbm, ⟨48, _⟩ => ⟨S16x8x64x64x64, .f32⟩
  | .hbm, ⟨49, _⟩ => ⟨S16x8x64x64x64, .f32⟩
  | .hbm, ⟨50, _⟩ => ⟨S16x512x64x64, .f32⟩
  | .hbm, ⟨51, _⟩ => ⟨S16x8x64x64x64, .f32⟩
  | .hbm, ⟨52, _⟩ => ⟨S16x1x64x1x64x64, .f32⟩
  | .hbm, ⟨53, _⟩ => ⟨S16x1x64x64x64, .f32⟩
  | .hbm, ⟨54, _⟩ => ⟨S16x8x64x64x64, .f32⟩
  | .hbm, ⟨55, _⟩ => ⟨S16x8x64x64x64, .f32⟩
  | .hbm, ⟨56, _⟩ => ⟨S16x8x64x64x64, .f32⟩
  | .hbm, ⟨57, _⟩ => ⟨S16x512x64x64, .f32⟩
  | .hbm, ⟨58, _⟩ => ⟨S16x8x64x64x64, .f32⟩
  | .hbm, ⟨59, _⟩ => ⟨S16x1x64x1x64x64, .f32⟩
  | .hbm, ⟨60, _⟩ => ⟨S16x1x64x64x64, .f32⟩
  | .hbm, ⟨61, _⟩ => ⟨S16x8x64x64x64, .f32⟩
  | .hbm, ⟨62, _⟩ => ⟨S16x8x64x64x64, .f32⟩
  | .hbm, ⟨63, _⟩ => ⟨S16x8x64x64x64, .f32⟩
  | .hbm, ⟨64, _⟩ => ⟨S16x512x64x64, .f32⟩
  | .hbm, ⟨65, _⟩ => ⟨S16x8x64x64x64, .f32⟩
  | .hbm, ⟨66, _⟩ => ⟨S16x1x64x1x64x64, .f32⟩
  | .hbm, ⟨67, _⟩ => ⟨S16x1x64x64x64, .f32⟩
  | .hbm, ⟨68, _⟩ => ⟨S16x8x64x64x64, .f32⟩
  | .hbm, ⟨69, _⟩ => ⟨S16x8x64x64x64, .f32⟩
  | .hbm, ⟨70, _⟩ => ⟨S16x8x64x64x64, .f32⟩
  | .hbm, ⟨71, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩

abbrev nD : Nat := 1
abbrev τ : Topo := Topo.v7x

variable {F : FTy → Type} [FloatOps F]

class Facts₀ : Prop where
  pads_S16x512x64x64_S16x512x66x66_000_000_110_110 : S16x512x64x64.Pads (![0, 0, 1, 1] : Fin 4 → Nat) ![0, 0, 1, 1] ![0, 0, 0, 0] S16x512x66x66
  h_S_ : 0 < S_.numel
  shapeCasts_S16x64x9x4096_S16x1x64x9x64x64 : S16x64x9x4096.ShapeCasts S16x1x64x9x64x64
  bcast_S_S16x8x64x64x64 : S_.BroadcastsInDim S16x8x64x64x64 (![] : Fin 0 → Fin S16x8x64x64x64.rank)
  slices_S16x512x66x66_S16x512x64x64_0_0_0_0 : S16x512x66x66.Slices ![0, 0, 0, 0] S16x512x64x64
  shapeCasts_S16x512x64x64_S16x8x64x64x64 : S16x512x64x64.ShapeCasts S16x8x64x64x64
  slices_S16x1x64x9x64x64_S16x1x64x1x64x64_0_0_0_0_0_0 : S16x1x64x9x64x64.Slices ![0, 0, 0, 0, 0, 0] S16x1x64x1x64x64
  shapeCasts_S16x1x64x1x64x64_S16x1x64x64x64 : S16x1x64x1x64x64.ShapeCasts S16x1x64x64x64
  bcast_S16x1x64x64x64_S16x8x64x64x64_0_1_2_3_4 : S16x1x64x64x64.BroadcastsInDim S16x8x64x64x64 (![0, 1, 2, 3, 4] : Fin 5 → Fin S16x8x64x64x64.rank)
  slices_S16x512x66x66_S16x512x64x64_0_0_0_1 : S16x512x66x66.Slices ![0, 0, 0, 1] S16x512x64x64
  slices_S16x1x64x9x64x64_S16x1x64x1x64x64_0_0_0_1_0_0 : S16x1x64x9x64x64.Slices ![0, 0, 0, 1, 0, 0] S16x1x64x1x64x64
  slices_S16x512x66x66_S16x512x64x64_0_0_0_2 : S16x512x66x66.Slices ![0, 0, 0, 2] S16x512x64x64
  slices_S16x1x64x9x64x64_S16x1x64x1x64x64_0_0_0_2_0_0 : S16x1x64x9x64x64.Slices ![0, 0, 0, 2, 0, 0] S16x1x64x1x64x64
  slices_S16x512x66x66_S16x512x64x64_0_0_1_0 : S16x512x66x66.Slices ![0, 0, 1, 0] S16x512x64x64
  slices_S16x1x64x9x64x64_S16x1x64x1x64x64_0_0_0_3_0_0 : S16x1x64x9x64x64.Slices ![0, 0, 0, 3, 0, 0] S16x1x64x1x64x64
  slices_S16x512x66x66_S16x512x64x64_0_0_1_1 : S16x512x66x66.Slices ![0, 0, 1, 1] S16x512x64x64
  slices_S16x1x64x9x64x64_S16x1x64x1x64x64_0_0_0_4_0_0 : S16x1x64x9x64x64.Slices ![0, 0, 0, 4, 0, 0] S16x1x64x1x64x64
  slices_S16x512x66x66_S16x512x64x64_0_0_1_2 : S16x512x66x66.Slices ![0, 0, 1, 2] S16x512x64x64
  slices_S16x1x64x9x64x64_S16x1x64x1x64x64_0_0_0_5_0_0 : S16x1x64x9x64x64.Slices ![0, 0, 0, 5, 0, 0] S16x1x64x1x64x64
  slices_S16x512x66x66_S16x512x64x64_0_0_2_0 : S16x512x66x66.Slices ![0, 0, 2, 0] S16x512x64x64
  slices_S16x1x64x9x64x64_S16x1x64x1x64x64_0_0_0_6_0_0 : S16x1x64x9x64x64.Slices ![0, 0, 0, 6, 0, 0] S16x1x64x1x64x64
  slices_S16x512x66x66_S16x512x64x64_0_0_2_1 : S16x512x66x66.Slices ![0, 0, 2, 1] S16x512x64x64
  slices_S16x1x64x9x64x64_S16x1x64x1x64x64_0_0_0_7_0_0 : S16x1x64x9x64x64.Slices ![0, 0, 0, 7, 0, 0] S16x1x64x1x64x64
  slices_S16x512x66x66_S16x512x64x64_0_0_2_2 : S16x512x66x66.Slices ![0, 0, 2, 2] S16x512x64x64
  slices_S16x1x64x9x64x64_S16x1x64x1x64x64_0_0_0_8_0_0 : S16x1x64x9x64x64.Slices ![0, 0, 0, 8, 0, 0] S16x1x64x1x64x64
  shapeCasts_S16x8x64x64x64_S16x512x64x64 : S16x8x64x64x64.ShapeCasts S16x512x64x64

variable [Facts₀]

class Facts : Prop extends Facts₀ where

variable [Facts]
-- ==== Proof.Spec.lean ====
/-
  The function both programs compute.

  The input is an array x of shape [16, 512, 64, 64] (batch n, channel ch, row h, column v) and the weights an array
  wt of shape [16, 64, 9, 4096] (batch, weight channel, tap, flattened pixel 64·h + v). With xp the input surrounded
  by a border of zeros of width one on the two spatial axes (shape [16, 512, 66, 66]), the result at (n, ch, h, v) is
  the running sum, started from zero, over the nine taps k = 3·a + b (a, b ∈ {0, 1, 2}, in this order) of

      xp (n, ch, h + a, v + b) · wt (n, ch mod 64, k, 64·h + v).

  Channel ch = 64·g + c uses weight channel c: the 512 channels are eight groups of 64 that share one set of weights.
  Both programs add the nine products in the same order, so no law of arithmetic is needed to compare them: this
  file only fixes the names — the two index functions, the nine-term sum as a function of its eighteen operands, and
  the congruence that compares two such sums operand by operand.
-/
import Idealize.ShloMosaic.PureOps.Ideal
import Idealize.ShloMosaic.Lib.ValueIdx

noncomputable section

namespace Cert.Agg

open Idealize.ShloMosaic Idealize.ShloMosaic.ValueIdx

variable {F : FTy → Type} [FloatOps F]

/-- The bordered input's shape. -/
abbrev SPad : Shape := ⟨4, ![16, 512, 66, 66]⟩
/-- The weights' shape. -/
abbrev SWt : Shape := ⟨4, ![16, 64, 9, 4096]⟩
/-- The result's shape. -/
abbrev SOut : Shape := ⟨4, ![16, 512, 64, 64]⟩

/-- Where tap (a, b) of output position (n, ch, h, v) reads the bordered input: (n, ch, h + a, v + b). -/
def tap (n : Fin 16) (ch : Fin 512) (h v : Fin 64) (a b : Fin 3) : SPad.Idx :=
  ix4 n ch (⟨h.val + a.val, by omega⟩ : Fin 66) (⟨v.val + b.val, by omega⟩ : Fin 66)

/-- Where tap k of output position (n, ch, h, v) reads the weights: (n, ch mod 64, k, 64·h + v). -/
def wsel (n : Fin 16) (ch : Fin 512) (h v : Fin 64) (k : Fin 9) : SWt.Idx :=
  ix4 n (⟨ch.val % 64, Nat.mod_lt _ (by decide)⟩ : Fin 64) k (⟨64 * h.val + v.val, by omega⟩ : Fin 4096)

/-- The running sum of nine products, started from zero, in the order the taps are visited. -/
def tapSum (p0 w0 p1 w1 p2 w2 p3 w3 p4 w4 p5 w5 p6 w6 p7 w7 p8 w8 : F .f32) : F .f32 :=
  FloatOps.addf (FloatOps.addf (FloatOps.addf (FloatOps.addf (FloatOps.addf (FloatOps.addf (FloatOps.addf (FloatOps.addf
    (FloatOps.addf (FloatOps.ofBits .f32 0x00000000#32) (FloatOps.mulf p0 w0)) (FloatOps.mulf p1 w1)) (FloatOps.mulf p2 w2))
    (FloatOps.mulf p3 w3)) (FloatOps.mulf p4 w4)) (FloatOps.mulf p5 w5)) (FloatOps.mulf p6 w6)) (FloatOps.mulf p7 w7))
    (FloatOps.mulf p8 w8)

/-- Two nine-term sums with equal operands are equal. -/
theorem tapSum_congr {p0 w0 p1 w1 p2 w2 p3 w3 p4 w4 p5 w5 p6 w6 p7 w7 p8 w8 : F .f32}
    {q0 u0 q1 u1 q2 u2 q3 u3 q4 u4 q5 u5 q6 u6 q7 u7 q8 u8 : F .f32}
    (hp0 : p0 = q0) (hw0 : w0 = u0) (hp1 : p1 = q1) (hw1 : w1 = u1) (hp2 : p2 = q2) (hw2 : w2 = u2)
    (hp3 : p3 = q3) (hw3 : w3 = u3) (hp4 : p4 = q4) (hw4 : w4 = u4) (hp5 : p5 = q5) (hw5 : w5 = u5)
    (hp6 : p6 = q6) (hw6 : w6 = u6) (hp7 : p7 = q7) (hw7 : w7 = u7) (hp8 : p8 = q8) (hw8 : w8 = u8) :
    tapSum p0 w0 p1 w1 p2 w2 p3 w3 p4 w4 p5 w5 p6 w6 p7 w7 p8 w8
      = tapSum q0 u0 q1 u1 q2 u2 q3 u3 q4 u4 q5 u5 q6 u6 q7 u7 q8 u8 := by
  subst hp0 hw0 hp1 hw1 hp2 hw2 hp3 hw3 hp4 hw4 hp5 hw5 hp6 hw6 hp7 hw7 hp8 hw8
  rfl

/-- The result at output position (n, ch, h, v), from the bordered input and the weights. -/
def aggAt (xp : FVec F SPad .f32) (wt : FVec F SWt .f32) (n : Fin 16) (ch : Fin 512) (h v : Fin 64) : F .f32 :=
  tapSum (xp (tap n ch h v 0 0)) (wt (wsel n ch h v 0)) (xp (tap n ch h v 0 1)) (wt (wsel n ch h v 1))
    (xp (tap n ch h v 0 2)) (wt (wsel n ch h v 2)) (xp (tap n ch h v 1 0)) (wt (wsel n ch h v 3))
    (xp (tap n ch h v 1 1)) (wt (wsel n ch h v 4)) (xp (tap n ch h v 1 2)) (wt (wsel n ch h v 5))
    (xp (tap n ch h v 2 0)) (wt (wsel n ch h v 6)) (xp (tap n ch h v 2 1)) (wt (wsel n ch h v 7))
    (xp (tap n ch h v 2 2)) (wt (wsel n ch h v 8))

/-- The whole result array. -/
def agg (xp : FVec F SPad .f32) (wt : FVec F SWt .f32) : FVec F SOut .f32 :=
  fun i => aggAt xp wt (i 0) (i 1) (i 2) (i 3)

/-- Coordinates of the indices `tap` and `wsel` build, as numbers. -/
theorem tap_val (n : Fin 16) (ch : Fin 512) (h v : Fin 64) (a b : Fin 3) :
    (tap n ch h v a b 0).val = n.val ∧ (tap n ch h v a b 1).val = ch.val
      ∧ (tap n ch h v a b 2).val = h.val + a.val ∧ (tap n ch h v a b 3).val = v.val + b.val :=
  ⟨rfl, rfl, rfl, rfl⟩

theorem wsel_val (n : Fin 16) (ch : Fin 512) (h v : Fin 64) (k : Fin 9) :
    (wsel n ch h v k 0).val = n.val ∧ (wsel n ch h v k 1).val = ch.val % 64
      ∧ (wsel n ch h v k 2).val = k.val ∧ (wsel n ch h v k 3).val = 64 * h.val + v.val :=
  ⟨rfl, rfl, rfl, rfl⟩

end Cert.Agg

end
-- ==== Proof.KernelBlock.lean ====
/-
  One grid point of the kernel, read at one element.

  At a grid point the body holds a block x0 of the bordered input — 64 channels, all 66 × 66 positions — and a block
  x1 of the weights — 64 channels, 9 taps, 64 × 64 pixels — and writes a block of 64 channels × 64 × 64 pixels. The
  generated value leg already says what the written block holds at a block index y = (0, c, h, v): the nine-term
  running sum of x0 read through the 64 × 64 window shifted by (a, b), times x1 read at tap 3·a + b. This file names
  that sum (`out_tapSum`) and then, for blocks that are restrictions of whole arrays — the bordered input xp at batch
  n and channels 64·g …, the weights wt at batch n —, identifies it with the specification at output position
  (n, 64·g + c, h, v) (`block_entry`). The hypotheses are stated coordinate by coordinate over variables, so that the
  pipeline's blocks are only substituted at the end.
-/
import proofs.«106520_j83614423319320_2_alg».proof.Proof.Gen.KernelIdeal.Value
import proofs.«106520_j83614423319320_2_alg».proof.Proof.Spec

noncomputable section

namespace Cert.KernelIdeal.Block

open Cert.KernelIdeal Cert.KernelIdeal.Gen Idealize.ShloMosaic Idealize.ShloMosaic.TcCoe Idealize.SL.Sem
open Cert.Agg

variable {F : FTy → Type} [FloatOps F]

/-- What the body leaves in the output block at block index `y`: the nine-term sum of its eighteen loads, each read
    where `y`'s element came from. -/
theorem out_tapSum (x0 : Vec F S1x64x66x66 .f32) (x1 : Vec F S1x64x9x64x64 .f32) (y : S1x64x64x64.Idx) :
    out0_2 x0 x1 y
      = tapSum (View.ld x0 r0_0 (Value.ix2_0 y)) (View.ld x1 r0_1 (Value.ix2_1 y))
          (View.ld x0 r0_2 (Value.ix2_2 y)) (View.ld x1 r0_3 (Value.ix2_3 y))
          (View.ld x0 r0_4 (Value.ix2_4 y)) (View.ld x1 r0_5 (Value.ix2_5 y))
          (View.ld x0 r0_6 (Value.ix2_6 y)) (View.ld x1 r0_7 (Value.ix2_7 y))
          (View.ld x0 r0_8 (Value.ix2_8 y)) (View.ld x1 r0_9 (Value.ix2_9 y))
          (View.ld x0 r0_10 (Value.ix2_10 y)) (View.ld x1 r0_11 (Value.ix2_11 y))
          (View.ld x0 r0_12 (Value.ix2_12 y)) (View.ld x1 r0_13 (Value.ix2_13 y))
          (View.ld x0 r0_14 (Value.ix2_14 y)) (View.ld x1 r0_15 (Value.ix2_15 y))
          (View.ld x0 r0_16 (Value.ix2_16 y)) (View.ld x1 r0_17 (Value.ix2_17 y)) := by
  unfold out0_2
  exact Value.canon2_eq (View.ld x0 r0_0) (View.ld x1 r0_1) (View.ld x0 r0_2) (View.ld x1 r0_3) (View.ld x0 r0_4)
    (View.ld x1 r0_5) (View.ld x0 r0_6) (View.ld x1 r0_7) (View.ld x0 r0_8) (View.ld x1 r0_9) (View.ld x0 r0_10)
    (View.ld x1 r0_11) (View.ld x0 r0_12) (View.ld x1 r0_13) (View.ld x0 r0_14) (View.ld x1 r0_15) (View.ld x0 r0_16)
    (View.ld x1 r0_17) y

/-- THE BLOCK IS THE SPECIFICATION'S. Let the input block `x0` be the bordered input `xp` at batch `n` and channels
    64·g, …, 64·g + 63 (`hx0`: element (·, c', r, s) of the block is `xp` at (n, 64·g + c', r, s)), and the weight
    block `x1` the weights at batch `n` (`hx1`: element (·, c', k, r, s) is `wt` at (n, c', k, 64·r + s)). Then the
    body's result at block index (·, c, h, v) is the specification at output position (n, 64·g + c, h, v): tap (a, b)
    loads the block through the 64 × 64 window at offset (a, b), so reads `xp` at (n, 64·g + c, h + a, v + b), and
    tap k = 3·a + b reads the weights at (n, c, k, 64·h + v), where c = (64·g + c) mod 64. -/
theorem block_entry (xp : FVec F SPad .f32) (wt : FVec F SWt .f32)
    (x0 : Vec F S1x64x66x66 .f32) (x1 : Vec F S1x64x9x64x64 .f32) (n : Fin 16) (g : Fin 8)
    (hx0 : ∀ (z : S1x64x66x66.Idx) (q : SPad.Idx), (q 0).val = n.val → (q 1).val = 64 * g.val + (z 1).val →
      (q 2).val = (z 2).val → (q 3).val = (z 3).val → x0 z = xp q)
    (hx1 : ∀ (z : S1x64x9x64x64.Idx) (q : SWt.Idx), (q 0).val = n.val → (q 1).val = (z 1).val →
      (q 2).val = (z 2).val → (q 3).val = 64 * (z 3).val + (z 4).val → x1 z = wt q)
    (c h v : Fin 64) (y : S1x64x64x64.Idx) (hy1 : (y 1).val = c.val) (hy2 : (y 2).val = h.val) (hy3 : (y 3).val = v.val) :
    out0_2 x0 x1 y = aggAt xp wt n (⟨64 * g.val + c.val, by omega⟩ : Fin 512) h v := by
  rw [out_tapSum]
  unfold aggAt
  have hmod : (64 * g.val + c.val) % 64 = c.val := by omega
  refine tapSum_congr ?_ ?_ ?_ ?_ ?_ ?_ ?_ ?_ ?_ ?_ ?_ ?_ ?_ ?_ ?_ ?_ ?_ ?_
  -- tap (0, 0): the window at offset (0, 0), the weights' tap 0
  · exact hx0 _ _ rfl (by show 64 * g.val + c.val = 64 * g.val + (0 + 1 * (y 1).val); omega)
      (by show h.val + 0 = 0 + 1 * (y 2).val; omega) (by show v.val + 0 = 0 + 1 * (y 3).val; omega)
  · exact hx1 _ _ rfl (by show (64 * g.val + c.val) % 64 = 0 + 1 * (y 1).val; omega)
      (by show 0 = 0 + 1 * 0; omega) (by show 64 * h.val + v.val = 64 * (0 + 1 * (y 2).val) + (0 + 1 * (y 3).val); omega)
  -- tap (0, 1): the window at offset (0, 1), the weights' tap 1
  · exact hx0 _ _ rfl (by show 64 * g.val + c.val = 64 * g.val + (0 + 1 * (y 1).val); omega)
      (by show h.val + 0 = 0 + 1 * (y 2).val; omega) (by show v.val + 1 = 1 + 1 * (y 3).val; omega)
  · exact hx1 _ _ rfl (by show (64 * g.val + c.val) % 64 = 0 + 1 * (y 1).val; omega)
      (by show 1 = 1 + 1 * 0; omega) (by show 64 * h.val + v.val = 64 * (0 + 1 * (y 2).val) + (0 + 1 * (y 3).val); omega)
  -- tap (0, 2): the window at offset (0, 2), the weights' tap 2
  · exact hx0 _ _ rfl (by show 64 * g.val + c.val = 64 * g.val + (0 + 1 * (y 1).val); omega)
      (by show h.val + 0 = 0 + 1 * (y 2).val; omega) (by show v.val + 2 = 2 + 1 * (y 3).val; omega)
  · exact hx1 _ _ rfl (by show (64 * g.val + c.val) % 64 = 0 + 1 * (y 1).val; omega)
      (by show 2 = 2 + 1 * 0; omega) (by show 64 * h.val + v.val = 64 * (0 + 1 * (y 2).val) + (0 + 1 * (y 3).val); omega)
  -- tap (1, 0): the window at offset (1, 0), the weights' tap 3
  · exact hx0 _ _ rfl (by show 64 * g.val + c.val = 64 * g.val + (0 + 1 * (y 1).val); omega)
      (by show h.val + 1 = 1 + 1 * (y 2).val; omega) (by show v.val + 0 = 0 + 1 * (y 3).val; omega)
  · exact hx1 _ _ rfl (by show (64 * g.val + c.val) % 64 = 0 + 1 * (y 1).val; omega)
      (by show 3 = 3 + 1 * 0; omega) (by show 64 * h.val + v.val = 64 * (0 + 1 * (y 2).val) + (0 + 1 * (y 3).val); omega)
  -- tap (1, 1): the window at offset (1, 1), the weights' tap 4
  · exact hx0 _ _ rfl (by show 64 * g.val + c.val = 64 * g.val + (0 + 1 * (y 1).val); omega)
      (by show h.val + 1 = 1 + 1 * (y 2).val; omega) (by show v.val + 1 = 1 + 1 * (y 3).val; omega)
  · exact hx1 _ _ rfl (by show (64 * g.val + c.val) % 64 = 0 + 1 * (y 1).val; omega)
      (by show 4 = 4 + 1 * 0; omega) (by show 64 * h.val + v.val = 64 * (0 + 1 * (y 2).val) + (0 + 1 * (y 3).val); omega)
  -- tap (1, 2): the window at offset (1, 2), the weights' tap 5
  · exact hx0 _ _ rfl (by show 64 * g.val + c.val = 64 * g.val + (0 + 1 * (y 1).val); omega)
      (by show h.val + 1 = 1 + 1 * (y 2).val; omega) (by show v.val + 2 = 2 + 1 * (y 3).val; omega)
  · exact hx1 _ _ rfl (by show (64 * g.val + c.val) % 64 = 0 + 1 * (y 1).val; omega)
      (by show 5 = 5 + 1 * 0; omega) (by show 64 * h.val + v.val = 64 * (0 + 1 * (y 2).val) + (0 + 1 * (y 3).val); omega)
  -- tap (2, 0): the window at offset (2, 0), the weights' tap 6
  · exact hx0 _ _ rfl (by show 64 * g.val + c.val = 64 * g.val + (0 + 1 * (y 1).val); omega)
      (by show h.val + 2 = 2 + 1 * (y 2).val; omega) (by show v.val + 0 = 0 + 1 * (y 3).val; omega)
  · exact hx1 _ _ rfl (by show (64 * g.val + c.val) % 64 = 0 + 1 * (y 1).val; omega)
      (by show 6 = 6 + 1 * 0; omega) (by show 64 * h.val + v.val = 64 * (0 + 1 * (y 2).val) + (0 + 1 * (y 3).val); omega)
  -- tap (2, 1): the window at offset (2, 1), the weights' tap 7
  · exact hx0 _ _ rfl (by show 64 * g.val + c.val = 64 * g.val + (0 + 1 * (y 1).val); omega)
      (by show h.val + 2 = 2 + 1 * (y 2).val; omega) (by show v.val + 1 = 1 + 1 * (y 3).val; omega)
  · exact hx1 _ _ rfl (by show (64 * g.val + c.val) % 64 = 0 + 1 * (y 1).val; omega)
      (by show 7 = 7 + 1 * 0; omega) (by show 64 * h.val + v.val = 64 * (0 + 1 * (y 2).val) + (0 + 1 * (y 3).val); omega)
  -- tap (2, 2): the window at offset (2, 2), the weights' tap 8
  · exact hx0 _ _ rfl (by show 64 * g.val + c.val = 64 * g.val + (0 + 1 * (y 1).val); omega)
      (by show h.val + 2 = 2 + 1 * (y 2).val; omega) (by show v.val + 2 = 2 + 1 * (y 3).val; omega)
  · exact hx1 _ _ rfl (by show (64 * g.val + c.val) % 64 = 0 + 1 * (y 1).val; omega)
      (by show 8 = 8 + 1 * 0; omega) (by show 64 * h.val + v.val = 64 * (0 + 1 * (y 2).val) + (0 + 1 * (y 3).val); omega)

end Cert.KernelIdeal.Block

end
-- ==== Proof.KernelValue.lean ====
/-
  The kernel's result array as one function of its arguments.

  Before the region the host builds the two arrays the windows read: the input with a border of zeros of width one
  on the two spatial axes (`padded`), and the weights with their 4096 flattened pixels split into 64 rows of 64
  (`V_weights`). The grid has 16 × 8 points; point (n, g) fetches block (n, g) of the bordered input — 64 channels —,
  block n of the weights, and writes block (n, g) of the result (`idx_facts`, decided over the 128 points). So the
  input block at a point is the bordered input at batch n and channels 64·g …, the weight block the weights at batch
  n (`input_block`, `weight_block`), and by `Block.block_entry` the block written back is that block of the
  specification (`flushed_eq`). The result's blocks tile it — position (n, ch, h, v) lies in block (n, ch / 64)
  (`covered`) —, so the array ends at the specification of the bordered input and the weights (`final`, `run`).
-/
import proofs.«106520_j83614423319320_2_alg».proof.Proof.Gen.KernelIdeal.Value
import proofs.«106520_j83614423319320_2_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Agg

variable {F : FTy → Type} [FloatOps F]
variable (m : (ℓ : Loc nD τ sig) → Buf (Elt F) ℓ) (ρ : Dev nD → PrngReg)

/-- The input with a border of zeros of width one on its two spatial axes, as the host builds it (the border's value
    is the integer 0 converted to a float). -/
abbrev padded (x : FVec F S16x512x64x64 .f32) : FVec F S16x512x66x66 .f32 :=
  pad S16x512x66x66 ![0, 0, 1, 1] ![0, 0, 1, 1] ![0, 0, 0, 0] x (sitofp .f32 (constantI S_ 32 0#32))
    pads_S16x512x64x64_S16x512x66x66_000_000_110_110 h_S_

/-- The region finds the bordered input in the first window's array. -/
theorem V_padded (c : Dev nD) :
    (V m c main_v0 : FVec F S16x512x66x66 .f32) = padded (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- The region finds the weights, their pixel axis split into rows and columns, in the second window's array. -/
theorem V_weights (c : Dev nD) :
    (V m c main_v1 : FVec F S16x64x9x64x64 .f32)
      = shapeCast S16x64x9x64x64 (m ((c : Thread nD τ).loc main_arg1)) shapeCasts_S16x64x9x4096_S16x64x9x64x64 := by
  dsimp only [Gen.V]
  simp only [Gen.hostOps0, Gen.hostOps0_1, Gen.hostOps0_2, List.flatten_cons, List.flatten_nil, List.append_nil,
    List.cons_append, List.nil_append]
  after_results
  rfl

/-- The printed index maps, decided over the 128 grid points: point (n, g) fetches block (n, g, 0, 0) of the bordered
    input, block (n, 0, 0, 0, 0) of the weights, and writes block (n, g, 0, 0) of the result, with n < 16 and g < 8. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = 0
    ∧ win0_1.index t (2 : Fin 5) = 0 ∧ win0_1.index t (3 : Fin 5) = 0 ∧ win0_1.index t (4 : Fin 5) = 0
    ∧ win0_2.index t (0 : Fin 4) < 16 ∧ win0_2.index t (1 : Fin 4) < 8
    ∧ win0_2.index t (2 : Fin 4) = 0 ∧ win0_2.index t (3 : Fin 4) = 0 :=
  (by decide +kernel : ∀ t : Fin grid0.N, _)

/-- Every block (n, g) of the result is some point's. -/
theorem idx_onto : ∀ (n : Fin 16) (g : Fin 8), ∃ t : Fin cfg0.N, win0_2.index t = ![n.val, g.val, 0, 0] :=
  (by decide +kernel : ∀ (n : Fin 16) (g : Fin 8), ∃ t : Fin grid0.N, win0_2.index t = ![n.val, g.val, 0, 0])

/-- The input block at point `t` = (n, g) is the bordered input at batch n and channels 64·g, …, 64·g + 63. -/
theorem input_block (c : Dev nD) (t : Fin cfg0.N) (z : S1x64x66x66.Idx) (q : S16x512x66x66.Idx)
    (h0 : (q 0).val = win0_2.index t (0 : Fin 4)) (h1 : (q 1).val = 64 * win0_2.index t (1 : Fin 4) + (z 1).val)
    (h2 : (q 2).val = (z 2).val) (h3 : (q 3).val = (z 3).val) :
    (iblk m c 0 t : Vec F S1x64x66x66 .f32) z = (V m c main_v0 : FVec F S16x512x66x66 .f32) q := by
  obtain ⟨e00, e01, e02, e03, -⟩ := idx_facts t
  show V m c main_v0 (((cfg0.win 0).blk t).view.emb z) = V m c main_v0 q
  refine congrArg (V m c main_v0) (funext fun a => Fin.ext ?_)
  have hz0 : (z 0).val < 1 := (z 0).isLt
  match a with
  | ⟨0, _⟩ => show win0_0.index t (0 : Fin 4) * 1 + 1 * (z 0).val = (q 0).val; omega
  | ⟨1, _⟩ => show win0_0.index t (1 : Fin 4) * 64 + 1 * (z 1).val = (q 1).val; omega
  | ⟨2, _⟩ => show win0_0.index t (2 : Fin 4) * 66 + 1 * (z 2).val = (q 2).val; omega
  | ⟨3, _⟩ => show win0_0.index t (3 : Fin 4) * 66 + 1 * (z 3).val = (q 3).val; omega

/-- The weight block at point `t` = (n, g) is the weights at batch n: pixel (r, s) of the split array is flattened
    pixel 64·r + s of the argument. -/
theorem weight_block (c : Dev nD) (t : Fin cfg0.N) (z : S1x64x9x64x64.Idx) (q : S16x64x9x4096.Idx)
    (h0 : (q 0).val = win0_2.index t (0 : Fin 4)) (h1 : (q 1).val = (z 1).val) (h2 : (q 2).val = (z 2).val)
    (h3 : (q 3).val = 64 * (z 3).val + (z 4).val) :
    (iblk m c 1 t : Vec F S1x64x9x64x64 .f32) z
      = (m ((c : Thread nD τ).loc main_arg1) : FVec F S16x64x9x4096 .f32) q := by
  obtain ⟨-, -, -, -, e10, e11, e12, e13, e14, -⟩ := idx_facts t
  show (V m c main_v1 : FVec F S16x64x9x64x64 .f32) (((cfg0.win 1).blk t).view.emb z) = _
  rw [V_weights]
  refine shapeCast_apply _ _ _ q ?_
  rw [Shape.rowMajor_val_four, Shape.rowMajor_val_five]
  have hz0 : (z 0).val < 1 := (z 0).isLt
  have hz4 : (z 4).val < 64 := (z 4).isLt
  show (((q 0).val * 64 + (q 1).val) * 9 + (q 2).val) * 4096 + (q 3).val
    = ((((win0_1.index t (0 : Fin 5) * 1 + 1 * (z 0).val) * 64 + (win0_1.index t (1 : Fin 5) * 64 + 1 * (z 1).val)) * 9
        + (win0_1.index t (2 : Fin 5) * 9 + 1 * (z 2).val)) * 64 + (win0_1.index t (3 : Fin 5) * 64 + 1 * (z 3).val)) * 64
      + (win0_1.index t (4 : Fin 5) * 64 + 1 * (z 4).val)
  rw [e10, e11, e12, e13, e14, h0, h1, h2, h3]
  omega

/-- WHAT POINT `t` WRITES BACK is block `t` of the specification of the bordered input and the weights. -/
theorem flushed_eq (c : Dev nD) (t : Fin cfg0.N) :
    (dats m 0 c).flushed 2 t
      = ((cfg0.win 2).blk t).view.read (Elt F)
          (agg (V m c main_v0 : FVec F S16x512x66x66 .f32) (m ((c : Thread nD τ).loc main_arg1) : FVec F S16x64x9x4096 .f32)) := by
  rw [Value.flushed2]
  obtain ⟨-, -, -, -, -, -, -, -, -, b0, b1, e22, e23⟩ := idx_facts t
  funext y
  have hy0 : (y 0).val < 1 := (y 0).isLt
  have hy1 : (y 1).val < 64 := (y 1).isLt
  have hy2 : (y 2).val < 64 := (y 2).isLt
  have hy3 : (y 3).val < 64 := (y 3).isLt
  show out0_2 (iblk m c 0 t) (iblk m c 1 t) y
    = agg (V m c main_v0 : FVec F S16x512x66x66 .f32) (m ((c : Thread nD τ).loc main_arg1) : FVec F S16x64x9x4096 .f32)
        (((cfg0.win 2).blk t).view.emb y)
  refine (Block.block_entry (V m c main_v0 : FVec F S16x512x66x66 .f32)
    (m ((c : Thread nD τ).loc main_arg1) : FVec F S16x64x9x4096 .f32) (iblk m c 0 t) (iblk m c 1 t)
    (⟨win0_2.index t (0 : Fin 4), b0⟩ : Fin 16) (⟨win0_2.index t (1 : Fin 4), b1⟩ : Fin 8)
    (fun z q h0 h1 h2 h3 => input_block m c t z q h0 h1 h2 h3)
    (fun z q h0 h1 h2 h3 => weight_block m c t z q h0 h1 h2 h3)
    (⟨(y 1).val, hy1⟩ : Fin 64) (⟨(y 2).val, hy2⟩ : Fin 64) (⟨(y 3).val, hy3⟩ : Fin 64) y rfl rfl rfl).trans ?_
  unfold agg
  congr 1 <;> apply Fin.ext
  · show win0_2.index t (0 : Fin 4) = win0_2.index t (0 : Fin 4) * 1 + 1 * (y 0).val; omega
  · show 64 * win0_2.index t (1 : Fin 4) + (y 1).val = win0_2.index t (1 : Fin 4) * 64 + 1 * (y 1).val; omega
  · show (y 2).val = win0_2.index t (2 : Fin 4) * 64 + 1 * (y 2).val; omega
  · show (y 3).val = win0_2.index t (3 : Fin 4) * 64 + 1 * (y 3).val; omega

/-- An index of the result is in point `t`'s block iff each coordinate is in the block's range on its axis. -/
theorem mem_blk (t : Fin cfg0.N) (i : S16x512x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v2).slice (win0_2.rect t)).set ↔ _
  rw [View.set_slice_whole, Rect.mem_set_unit]
  exact Iff.rfl

/-- The blocks tile the result: position (n, ch, h, v) lies in the block of the point (n, ch / 64). -/
theorem covered (i : S16x512x64x64.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 64 := (i 2).isLt
  have hi3 : (i 3).val < 64 := (i 3).isLt
  obtain ⟨t, ht⟩ := idx_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE RESULT ARRAY after the run: the specification of the bordered input and the weights. -/
theorem final (c : Dev nD) :
    (dats m 0 c).arrAt 2 cfg0.N
      = agg (padded (m ((c : Thread nD τ).loc main_arg0))) (m ((c : Thread nD τ).loc main_arg1) : FVec F S16x64x9x4096 .f32) := by
  rw [← V_padded m c]
  exact (dats m 0 c).arrAt_eq_of_cover 2 _ (fun t _ => flushed_eq m c t) covered

/-- The run, read: the result array at the specification, the arguments unchanged. -/
theorem run : θ_run defs (onTc (τ := τ) (main (F := F))) ⟨m, fun _ => 0, ρ⟩ fun r => ∀ c : Dev nD,
      r.2.mem ((c : Thread nD τ).loc main_v2)
        = agg (padded (m ((c : Thread nD τ).loc main_arg0))) (m ((c : Thread nD τ).loc main_arg1) : FVec F S16x64x9x4096 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result array is the specification.

  The reference cuts nine 64 × 64 windows out of the bordered input, at offsets (a, b), regroups each from 512
  channels to 8 groups of 64, multiplies it by tap 3·a + b of the weights — the weights regrouped to
  [16, 1, 64, 9, 64, 64], cut at the tap, the tap axis dropped, and repeated over the eight groups — and adds the nine
  products onto zero in the order of the taps; the sum is regrouped back to 512 channels. Read at the regrouped
  position (n, g, c, h, v), the window at offset (a, b) is the bordered input at (n, 64·g + c, h + a, v + b)
  (`window_read`) and the repeated tap k is the weights at (n, c, k, 64·h + v) (`weight_read`), which are the
  specification's operands at output position (n, 64·g + c, h, v); position (n, ch, h, v) of the result is the sum
  at (n, ch / 64, ch mod 64, h, v) (`result_eq`).
-/
import proofs.«106520_j83614423319320_2_alg».proof.Proof.Gen.ReferenceIdeal.Read
import proofs.«106520_j83614423319320_2_alg».proof.Proof.Spec
import Idealize.ShloMosaic.Lib.Pipeline.Value
import Idealize.ShloMosaic.Lib.ValueIdxRank6

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Agg

variable {F : FTy → Type} [FloatOps F]

/-- The window of the bordered input at offset (a, b), regrouped into 8 groups of 64 channels, read at (n, g, c, h, v):
    the bordered input at (n, 64·g + c, h + a, v + b). -/
theorem window_read (xp : FVec F S16x512x66x66 .f32) (a b : Fin 3)
    (hsl : S16x512x66x66.Slices ![0, 0, a.val, b.val] S16x512x64x64) (n : Fin 16) (g : Fin 8) (c h v : Fin 64) :
    shapeCast S16x8x64x64x64 (extractStridedSlice S16x512x64x64 ![0, 0, a.val, b.val] xp hsl)
        shapeCasts_S16x512x64x64_S16x8x64x64x64 (ix5 n g c h v)
      = xp (tap n (⟨64 * g.val + c.val, by omega⟩ : Fin 512) h v a b) := by
  refine (shapeCast_apply _ _ (ix5 n g c h v) (ix4 n (⟨64 * g.val + c.val, by omega⟩ : Fin 512) h v) ?_).trans ?_
  · rw [Shape.rowMajor_val_four, Shape.rowMajor_val_five]
    show ((n.val * 512 + (64 * g.val + c.val)) * 64 + h.val) * 64 + v.val
      = (((n.val * 8 + g.val) * 64 + c.val) * 64 + h.val) * 64 + v.val
    omega
  · refine extractStridedSlice_apply _ xp hsl _ _ fun d => ?_
    match d with
    | ⟨0, _⟩ => show n.val = 0 + n.val; omega
    | ⟨1, _⟩ => show 64 * g.val + c.val = 0 + (64 * g.val + c.val); omega
    | ⟨2, _⟩ => show h.val + a.val = a.val + h.val; omega
    | ⟨3, _⟩ => show v.val + b.val = b.val + v.val; omega

/-- Tap k of the weights — regrouped to [16, 1, 64, 9, 64, 64], cut at the tap, the tap axis dropped, repeated over the
    eight groups — read at (n, g, c, h, v): the weights at (n, c, k, 64·h + v), whatever the group. -/
theorem weight_read (wt : FVec F S16x64x9x4096 .f32) (k : Fin 9)
    (hsl : S16x1x64x9x64x64.Slices ![0, 0, 0, k.val, 0, 0] S16x1x64x1x64x64) (n : Fin 16) (g : Fin 8) (c h v : Fin 64) :
    broadcastInDim S16x8x64x64x64 ![0, 1, 2, 3, 4] bcast_S16x1x64x64x64_S16x8x64x64x64_0_1_2_3_4
        (shapeCast S16x1x64x64x64
          (extractStridedSlice S16x1x64x1x64x64 ![0, 0, 0, k.val, 0, 0]
            (shapeCast S16x1x64x9x64x64 wt shapeCasts_S16x64x9x4096_S16x1x64x9x64x64) hsl)
          shapeCasts_S16x1x64x1x64x64_S16x1x64x64x64) (ix5 n g c h v)
      = wt (wsel n (⟨64 * g.val + c.val, by omega⟩ : Fin 512) h v k) := by
  refine (broadcastInDim_apply _ _ _ (ix5 n g c h v) (ix5 n (0 : Fin 1) c h v) fun d => ?_).trans ?_
  · match d with
    | ⟨0, _⟩ => show n.val = if (16 : Nat) = 1 then 0 else n.val; rw [if_neg (by decide)]
    | ⟨1, _⟩ => show 0 = if (1 : Nat) = 1 then 0 else g.val; rw [if_pos rfl]
    | ⟨2, _⟩ => show c.val = if (64 : Nat) = 1 then 0 else c.val; rw [if_neg (by decide)]
    | ⟨3, _⟩ => show h.val = if (64 : Nat) = 1 then 0 else h.val; rw [if_neg (by decide)]
    | ⟨4, _⟩ => show v.val = if (64 : Nat) = 1 then 0 else v.val; rw [if_neg (by decide)]
  refine (shapeCast_apply _ _ (ix5 n (0 : Fin 1) c h v) (ix6 n (0 : Fin 1) c (0 : Fin 1) h v) ?_).trans ?_
  · rw [Shape.rowMajor_val_six, Shape.rowMajor_val_five]
    show ((((n.val * 1 + 0) * 64 + c.val) * 1 + 0) * 64 + h.val) * 64 + v.val
      = (((n.val * 1 + 0) * 64 + c.val) * 64 + h.val) * 64 + v.val
    omega
  refine (extractStridedSlice_apply _ _ hsl (ix6 n (0 : Fin 1) c (0 : Fin 1) h v) (ix6 n (0 : Fin 1) c k h v)
    fun d => ?_).trans ?_
  · match d with
    | ⟨0, _⟩ => show n.val = 0 + n.val; omega
    | ⟨1, _⟩ => show 0 = 0 + 0; omega
    | ⟨2, _⟩ => show c.val = 0 + c.val; omega
    | ⟨3, _⟩ => show k.val = k.val + 0; omega
    | ⟨4, _⟩ => show h.val = 0 + h.val; omega
    | ⟨5, _⟩ => show v.val = 0 + v.val; omega
  refine shapeCast_apply wt _ (ix6 n (0 : Fin 1) c k h v) _ ?_
  rw [Shape.rowMajor_val_four, Shape.rowMajor_val_six]
  show ((n.val * 64 + (64 * g.val + c.val) % 64) * 9 + k.val) * 4096 + (64 * h.val + v.val)
    = ((((n.val * 1 + 0) * 64 + c.val) * 9 + k.val) * 64 + h.val) * 64 + v.val
  omega

/-- The sum before the final regrouping, at one position: the nine-term running sum of the reference's nine windows
    and nine repeated taps there. -/
theorem sum_tapSum (x0 : FVec F S16x512x64x64 .f32) (x1 : FVec F S16x64x9x4096 .f32) (j : S16x8x64x64x64.Idx) :
    val_main_v65 (F := F) x0 x1 j
      = tapSum (val_main_v4 (F := F) x0 j) (val_main_v7 (F := F) x1 j) (val_main_v11 (F := F) x0 j) (val_main_v14 (F := F) x1 j)
          (val_main_v18 (F := F) x0 j) (val_main_v21 (F := F) x1 j) (val_main_v25 (F := F) x0 j) (val_main_v28 (F := F) x1 j)
          (val_main_v32 (F := F) x0 j) (val_main_v35 (F := F) x1 j) (val_main_v39 (F := F) x0 j) (val_main_v42 (F := F) x1 j)
          (val_main_v46 (F := F) x0 j) (val_main_v49 (F := F) x1 j) (val_main_v53 (F := F) x0 j) (val_main_v56 (F := F) x1 j)
          (val_main_v60 (F := F) x0 j) (val_main_v63 (F := F) x1 j) := rfl

/-- That sum at (n, g, c, h, v) is the specification at output position (n, 64·g + c, h, v) of the bordered input
    and the weights. -/
theorem sum_entry (x0 : FVec F S16x512x64x64 .f32) (x1 : FVec F S16x64x9x4096 .f32) (n : Fin 16) (g : Fin 8) (c h v : Fin 64) :
    val_main_v65 (F := F) x0 x1 (ix5 n g c h v)
      = aggAt (val_main_v0 (F := F) x0) x1 n (⟨64 * g.val + c.val, by omega⟩ : Fin 512) h v := by
  rw [sum_tapSum]
  unfold aggAt
  exact tapSum_congr
    (window_read (val_main_v0 (F := F) x0) 0 0 slices_S16x512x66x66_S16x512x64x64_0_0_0_0 n g c h v)
    (weight_read x1 0 slices_S16x1x64x9x64x64_S16x1x64x1x64x64_0_0_0_0_0_0 n g c h v)
    (window_read (val_main_v0 (F := F) x0) 0 1 slices_S16x512x66x66_S16x512x64x64_0_0_0_1 n g c h v)
    (weight_read x1 1 slices_S16x1x64x9x64x64_S16x1x64x1x64x64_0_0_0_1_0_0 n g c h v)
    (window_read (val_main_v0 (F := F) x0) 0 2 slices_S16x512x66x66_S16x512x64x64_0_0_0_2 n g c h v)
    (weight_read x1 2 slices_S16x1x64x9x64x64_S16x1x64x1x64x64_0_0_0_2_0_0 n g c h v)
    (window_read (val_main_v0 (F := F) x0) 1 0 slices_S16x512x66x66_S16x512x64x64_0_0_1_0 n g c h v)
    (weight_read x1 3 slices_S16x1x64x9x64x64_S16x1x64x1x64x64_0_0_0_3_0_0 n g c h v)
    (window_read (val_main_v0 (F := F) x0) 1 1 slices_S16x512x66x66_S16x512x64x64_0_0_1_1 n g c h v)
    (weight_read x1 4 slices_S16x1x64x9x64x64_S16x1x64x1x64x64_0_0_0_4_0_0 n g c h v)
    (window_read (val_main_v0 (F := F) x0) 1 2 slices_S16x512x66x66_S16x512x64x64_0_0_1_2 n g c h v)
    (weight_read x1 5 slices_S16x1x64x9x64x64_S16x1x64x1x64x64_0_0_0_5_0_0 n g c h v)
    (window_read (val_main_v0 (F := F) x0) 2 0 slices_S16x512x66x66_S16x512x64x64_0_0_2_0 n g c h v)
    (weight_read x1 6 slices_S16x1x64x9x64x64_S16x1x64x1x64x64_0_0_0_6_0_0 n g c h v)
    (window_read (val_main_v0 (F := F) x0) 2 1 slices_S16x512x66x66_S16x512x64x64_0_0_2_1 n g c h v)
    (weight_read x1 7 slices_S16x1x64x9x64x64_S16x1x64x1x64x64_0_0_0_7_0_0 n g c h v)
    (window_read (val_main_v0 (F := F) x0) 2 2 slices_S16x512x66x66_S16x512x64x64_0_0_2_2 n g c h v)
    (weight_read x1 8 slices_S16x1x64x9x64x64_S16x1x64x1x64x64_0_0_0_8_0_0 n g c h v)

/-- THE REFERENCE'S RESULT is the specification of the bordered input and the weights: position (n, ch, h, v) of the
    regrouped sum is the sum at (n, ch / 64, ch mod 64, h, v), and 64·(ch / 64) + ch mod 64 = ch. -/
theorem result_eq (x0 : FVec F S16x512x64x64 .f32) (x1 : FVec F S16x64x9x4096 .f32) :
    val_main_v66 (F := F) x0 x1 = agg (val_main_v0 (F := F) x0) x1 := by
  funext i
  have hi0 : (i 0).val < 16 := (i 0).isLt
  have hi1 : (i 1).val < 512 := (i 1).isLt
  have hi2 : (i 2).val < 64 := (i 2).isLt
  have hi3 : (i 3).val < 64 := (i 3).isLt
  unfold val_main_v66
  refine (shapeCast_apply _ _ i (ix5 (⟨(i 0).val, hi0⟩ : Fin 16) (⟨(i 1).val / 64, by omega⟩ : Fin 8)
    (⟨(i 1).val % 64, Nat.mod_lt _ (by decide)⟩ : Fin 64) (⟨(i 2).val, hi2⟩ : Fin 64) (⟨(i 3).val, hi3⟩ : Fin 64)) ?_).trans ?_
  · rw [Shape.rowMajor_val_five, Shape.rowMajor_val_four]
    show ((((i 0).val * 8 + (i 1).val / 64) * 64 + (i 1).val % 64) * 64 + (i 2).val) * 64 + (i 3).val
      = (((i 0).val * 512 + (i 1).val) * 64 + (i 2).val) * 64 + (i 3).val
    omega
  · refine (sum_entry x0 x1 _ _ _ _ _).trans ?_
    exact congrArg (fun ch : Fin 512 => aggAt (val_main_v0 (F := F) x0) x1 (i 0) ch (i 2) (i 3))
      (Fin.ext (by show 64 * ((i 1).val / 64) + (i 1).val % 64 = (i 1).val; omega))

end Cert.ReferenceIdeal.RefValue

end
-- ==== Proof.lean ====
/-
  A 3 × 3 neighbourhood aggregation with per-pixel weights, as a pipelined kernel and as array operations.

  For an input x of shape [16, 512, 64, 64] and weights wt of shape [16, 64, 9, 4096], both programs compute, at
  (n, ch, h, v), the sum over the nine taps (a, b) of xp (n, ch, h + a, v + b) · wt (n, ch mod 64, 3·a + b, 64·h + v),
  where xp is x with a border of zeros (Proof/Spec.lean). They build xp by the same host operation and add the nine
  products onto zero in the same order, so on the extended reals the two results are the same term at every index:
  no law of arithmetic, and so no finiteness of the inputs, is used.

  The kernel walks a grid of 16 × 8 points; point (n, g) holds 64 channels of xp and batch n of the weights and
  writes 64 channels of the result (Proof/KernelBlock.lean: one point at one element; Proof/KernelValue.lean: the
  blocks tile the result). The reference cuts nine shifted windows out of xp, regroups the channels into eight groups
  so that one copy of the weights can be repeated over the groups, and regroups the sum back (Proof/RefValue.lean).
  The three frames are the generated ones (the reference's is its generated run with the result dropped); the
  idealization changed nothing in the kernel, so there is nothing to preserve.
-/
import proofs.«106520_j83614423319320_2_alg».proof.Defs
import proofs.«106520_j83614423319320_2_alg».proof.Proof.Gen.Kernel
import proofs.«106520_j83614423319320_2_alg».proof.Proof.Gen.Kernel.Skeleton
import proofs.«106520_j83614423319320_2_alg».proof.Proof.Gen.Kernel.Launch
import proofs.«106520_j83614423319320_2_alg».proof.Proof.Gen.Kernel.Points
import proofs.«106520_j83614423319320_2_alg».proof.Proof.Gen.Kernel.Frame
import proofs.«106520_j83614423319320_2_alg».proof.Proof.Gen.KernelIdeal
import proofs.«106520_j83614423319320_2_alg».proof.Proof.Gen.KernelIdeal.Skeleton
import proofs.«106520_j83614423319320_2_alg».proof.Proof.Gen.KernelIdeal.Launch
import proofs.«106520_j83614423319320_2_alg».proof.Proof.Gen.KernelIdeal.Points
import proofs.«106520_j83614423319320_2_alg».proof.Proof.Gen.KernelIdeal.Frame
import proofs.«106520_j83614423319320_2_alg».proof.Proof.Gen.ReferenceIdeal
import proofs.«106520_j83614423319320_2_alg».proof.Proof.Gen.Pre_finite_inputs
import proofs.«106520_j83614423319320_2_alg».proof.Proof.Gen.KernelIdeal.Value
import proofs.«106520_j83614423319320_2_alg».proof.Proof.Gen.ReferenceIdeal.Run
import proofs.«106520_j83614423319320_2_alg».proof.Proof.Gen.ReferenceIdeal.Read
import proofs.«106520_j83614423319320_2_alg».proof.Proof.Spec
import proofs.«106520_j83614423319320_2_alg».proof.Proof.KernelBlock
import proofs.«106520_j83614423319320_2_alg».proof.Proof.KernelValue
import proofs.«106520_j83614423319320_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification of the bordered input and the weights
    (`Whole.run`), and so does the reference's (`RefValue.result_eq`), of arguments that agree; the two bordered
    inputs are one term. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
